-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel

variable [Facts]

def fn {F : FTy → Type} [FloatOps F] (main_arg0 : FVec F S8x4096 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  main_v3
-- ==== Kernel.lean ====
abbrev S8x4096 : Shape := ⟨2, ![8, 4096]⟩
abbrev S8 : Shape := ⟨1, ![8]⟩
abbrev S8x1 : Shape := ⟨2, ![8, 1]⟩

abbrev nBuf : Space → Nat
  | .hbm => 2
  | .vmem => 2
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .local _ .vmem, ⟨0, _⟩ => ⟨S8x4096, .f32⟩
  | .local _ .vmem, ⟨1, _⟩ => ⟨S8x4096, .f32⟩
  | _, _ => ⟨S8x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S8x4096_S8x4096_0_0 : ∀ a, (![0, 0] : Fin 2 → Nat) a + S8x4096.size a ≤ S8x4096.size a
  h_S8x4096 : 0 < S8x4096.numel
  reduces_S8x4096_S8 : S8x4096.Reduces [1] S8
  shapeCasts_S8_S8x1 : S8.ShapeCasts S8x1
  broadcasts_S8x1_S8x4096 : S8x1.Broadcasts S8x4096
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)

variable [Facts₀]

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096 : Shape := ⟨2, ![8, 4096]⟩
abbrev S8x4096x1 : Shape := ⟨3, ![8, 4096, 1]⟩
abbrev S8x4096x4096 : Shape := ⟨3, ![8, 4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096x1, .f32⟩
  | .hbm, ⟨2, _⟩ => ⟨S8x4096x4096, .f32⟩
  | .hbm, ⟨3, _⟩ => ⟨S_, .f32⟩
  | .hbm, ⟨4, _⟩ => ⟨S8x4096x4096, .f32⟩
  | .hbm, ⟨5, _⟩ => ⟨S8x4096x4096, .f32⟩
  | .hbm, ⟨6, _⟩ => ⟨S8x4096x1, .f32⟩
  | .hbm, ⟨7, _⟩ => ⟨S8x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S8x4096_S8x4096x1_0_1 : S8x4096.BroadcastsInDim S8x4096x1 (![0, 1] : Fin 2 → Fin S8x4096x1.rank)
  bcast_S_S8x4096x4096 : S_.BroadcastsInDim S8x4096x4096 (![] : Fin 0 → Fin S8x4096x4096.rank)
  shapeCasts_S8x4096x1_S8x4096 : S8x4096x1.ShapeCasts S8x4096
  dot_S8x4096x1_S8x4096x1_S8x4096x4096_2_2_1_1_0_0_wf : DotDims.WF S8x4096x1 S8x4096x1 S8x4096x4096 [2] [2] [1] [1] [0] [0]
  dot_S8x4096x4096_S8x4096x1_S8x4096x1_2_1_1_2_0_0_wf : DotDims.WF S8x4096x4096 S8x4096x1 S8x4096x1 [2] [1] [1] [2] [0] [0]

variable [Facts₀]

def dot_S8x4096x1_S8x4096x1_S8x4096x4096_2_2_1_1_0_0 : DotDims S8x4096x1 S8x4096x1 S8x4096x4096 where
  lhsContracting := [2]
  rhsContracting := [2]
  lhsNonContracting := [1]
  rhsNonContracting := [1]
  lhsBatch := [0]
  rhsBatch := [0]
  wf := dot_S8x4096x1_S8x4096x1_S8x4096x4096_2_2_1_1_0_0_wf
def dot_S8x4096x4096_S8x4096x1_S8x4096x1_2_1_1_2_0_0 : DotDims S8x4096x4096 S8x4096x1 S8x4096x1 where
  lhsContracting := [2]
  rhsContracting := [1]
  lhsNonContracting := [1]
  rhsNonContracting := [2]
  lhsBatch := [0]
  rhsBatch := [0]
  wf := dot_S8x4096x4096_S8x4096x1_S8x4096x1_2_1_1_2_0_0_wf

class Facts : Prop extends Facts₀ where

variable [Facts]
-- ==== Proof.RowEnergy.lean ====
/-
  The function both programs compute, and the law of real numbers that joins their two arrangements of it.

  For an 8 × 4096 array `x` write `energy x b = ∑ k, x[b,k] · x[b,k]` for the sum of squares of row `b`. The result
  at `(b, l)` is `x[b,l] · energy x b · 2⁻⁴`. One program forms exactly this product. The other forms, for each row,
  the 4096 × 4096 outer product of the row with itself, divides every entry by sixteen, and multiplies that matrix
  by the row again: `∑ k, ((x[b,l] · x[b,k]) / 16) · x[b,k]`. Over the real numbers the two agree, because the
  factors that do not depend on `k` leave the sum. Over the extended reals that step is distributivity, which fails
  at the infinities, so the law is stated for real entries; the hypothesis that every input is finite supplies them.
-/
import Idealize.ShloMosaic.PureOps.Ideal
import Idealize.ShloMosaic.PureOps.Ideal.Laws
import Idealize.ShloMosaic.Lib.ValueIdx

noncomputable section

namespace Cert.RowEnergy

open Idealize.ShloMosaic Idealize.ShloMosaic.ValueIdx

/-- The word `0x41800000` denotes sixteen: exponent field 131, empty fraction, so `2 ^ (131 - 127)`. -/
theorem sixteen : Ideal.ofBits .f32 0x41800000#32 = ((16 : ℝ) : EReal) := by
  simp [Ideal.ofBits, Ideal.ieee, -EReal.coe_mul]; norm_num

/-- The word `0x3D800000` denotes one sixteenth exactly: exponent field 123, empty fraction, so `2 ^ (123 - 127)`. -/
theorem sixteenth : Ideal.ofBits .f32 0x3D800000#32 = ((1 / 16 : ℝ) : EReal) := by
  simp [Ideal.ofBits, Ideal.ieee, -EReal.coe_mul]; norm_num

/-- The embedding of the reals in the extended reals commutes with finite sums. -/
theorem coe_sum {ι : Type} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The sum of squares of row `b`. -/
def energy (x : (⟨2, ![8, 4096]⟩ : Shape).Idx → EReal) (b : Fin 8) : EReal :=
  ∑ k : Fin 4096, x (ix2 b k) * x (ix2 b k)

/-- The result array: each entry times the energy of its row times the value of the word `0x3D800000`. -/
def scaled (x : (⟨2, ![8, 4096]⟩ : Shape).Idx → EReal) : (⟨2, ![8, 4096]⟩ : Shape).Idx → EReal :=
  fun i => (x i * energy x (i 0)) * Ideal.ofBits .f32 0x3D800000#32

/-- The law, for a real `a` (the entry being scaled) and real `f k` (the entries of its row): multiplying the row into the
    outer product divided by sixteen gives the entry times the row's energy times one sixteenth. Division by the real
    sixteen is multiplication by its reciprocal, every term is then a real, and in the reals `a` and `1/16` leave the sum. -/
theorem outer_then_apply {n : Nat} (a : ℝ) (f : Fin n → ℝ) :
    ∑ k : Fin n, Ideal.div ((a : EReal) * (f k : EReal)) (Ideal.ofBits .f32 0x41800000#32) * (f k : EReal)
      = ((a : EReal) * ∑ k : Fin n, (f k : EReal) * (f k : EReal)) * Ideal.ofBits .f32 0x3D800000#32 := by
  rw [sixteen, sixteenth]
  simp only [Ideal.div_coe (by norm_num : (16 : ℝ) ≠ 0), ← EReal.coe_mul, ← coe_sum]
  congr 1
  rw [Finset.mul_sum, Finset.sum_mul]
  exact Finset.sum_congr rfl fun k _ => by ring

end Cert.RowEnergy

end
-- ==== Proof.FiniteEntries.lean ====
/-
  From the hypothesis on the input to real entries.

  The hypothesis evaluates, over the whole 8 × 4096 array, the conjunction of the comparisons `|x[i]| < +∞`, and says
  the conjunction is true. A conjunction over every index is true only if each conjunct is, so `|x[i]| < +∞` at each
  index. On the extended reals `|a|` is `max a (-a)`, which is `+∞` at both infinities, so an entry that passes the
  comparison is a real number.
-/
import proofs.«134291_j661424964229_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteEntries

open Idealize.ShloMosaic

/-- The word `0x7F800000` (all exponent bits set, empty fraction, sign clear) denotes `+∞`. -/
theorem inf_word : Ideal.ofBits .f32 0x7F800000#32 = ⊤ := by
  simp [Ideal.ofBits, Ideal.ieee]

/-- An extended real whose absolute value `max a (-a)` is below `+∞` is a real: at `-∞` the negation is `+∞`, at `+∞`
    the number itself is. -/
theorem real_of_abs_lt_top (a : EReal) (h : max a (-a) < ⊤) : ∃ r : ℝ, a = (r : EReal) := by
  induction a using EReal.rec with
  | bot => simp at h
  | top => simp at h
  | coe r => exact ⟨r, rfl⟩

/-- The result of reducing over every axis has exactly one index. -/
instance : Subsingleton Cert.Pre_finite_inputs.S_.Idx := ⟨fun a b => funext fun d => d.elim0⟩

/-- If the hypothesis holds of `x`, every entry of `x` is a real number. -/
theorem entries_real [Cert.Pre_finite_inputs.Facts] (x : FVec Ideal Cert.Pre_finite_inputs.S8x4096 .f32)
    (h : Cert.Pre_finite_inputs.fn (F := Ideal) x = fun _ => 1#1) (i : Cert.Pre_finite_inputs.S8x4096.Idx) :
    ∃ r : ℝ, x i = (r : EReal) := by
  have h0 := congrFun h ValueIdx.ix0
  dsimp only [Cert.Pre_finite_inputs.fn] at h0
  have hi := Host.reduce_andi_all _ _ _ _ _ h0 i
  simp only [cmpf, Host.absf, broadcastInDim, constant, Ideal.cmpf_def, Ideal.hostAbsf_def, Ideal.absf_def,
    Ideal.ofBits_def, inf_word, Ideal.cmp] at hi
  refine real_of_abs_lt_top _ ?_
  by_contra hn
  rw [decide_eq_false hn] at hi
  exact absurd hi (by decide)

end Cert.FiniteEntries

end
-- ==== Proof.RefValue.lean ====
/-
  The reference's last stage is the row-energy scaling, when the entries are real.

  Read at `(b, l)`, the reshape takes the entry `(b, l, 0)` of the second product, which sums over `k` the divided outer
  product at `(b, l, k)` times the row's entry `(b, k, 0)`; the outer product at `(b, l, k)` is a sum over the one
  contracted coordinate of `x[b,l] · x[b,k]`. So the entry is `∑ k, ((x[b,l] · x[b,k]) / 16) · x[b,k]`, and the law of
  real numbers rearranges it to `x[b,l] · (∑ k, x[b,k]²) · 2⁻⁴`.
-/
import proofs.«134291_j661424964229_2_alg».proof.Proof.Gen.ReferenceIdeal.Read
import proofs.«134291_j661424964229_2_alg».proof.Proof.RowEnergy

noncomputable section

namespace Cert.ReferenceIdeal.RefValue

open Cert.ReferenceIdeal Cert.ReferenceIdeal.Gen Cert.ReferenceIdeal.Read Idealize.ShloMosaic Idealize.ShloMosaic.ValueIdx

/-- Through the reshape, the second product's left operand and the first product's left operand, entry `(b, l)` of the
    result reads `x` at `(b, l)`, whatever the summation coordinates are. -/
theorem left_index (b : Fin 8) (l k : Fin 4096) (j : Fin 1) :
    idx_main_v0 (lidx_main_v1 (lidx_main_v4 (idx_main_v5 (ix2 b l)) k) j) = ix2 b l := by
  have hb : b.val < 8 := b.isLt
  have hl : l.val < 4096 := l.isLt
  funext a; apply Fin.ext
  match a with
  | ⟨0, _⟩ => show (b.val * 4096 + l.val) / 4096 = b.val; omega
  | ⟨1, _⟩ => show (b.val * 4096 + l.val) / 1 % 4096 = l.val; omega

/-- The first product's right operand reads `x` at `(b, k)`: the summation coordinate of the second product is the
    outer product's column. -/
theorem right_index (b : Fin 8) (l k : Fin 4096) (j : Fin 1) :
    idx_main_v0 (ridx_main_v1 (lidx_main_v4 (idx_main_v5 (ix2 b l)) k) j) = ix2 b k := by
  have hb : b.val < 8 := b.isLt
  have hl : l.val < 4096 := l.isLt
  funext a; apply Fin.ext
  match a with
  | ⟨0, _⟩ => show (b.val * 4096 + l.val) / 4096 = b.val; omega
  | ⟨1, _⟩ => rfl

/-- The second product's right operand reads `x` at `(b, k)` as well. -/
theorem row_index (b : Fin 8) (l k : Fin 4096) :
    idx_main_v0 (ridx_main_v4 (idx_main_v5 (ix2 b l)) k) = ix2 b k := by
  have hb : b.val < 8 := b.isLt
  have hl : l.val < 4096 := l.isLt
  funext a; apply Fin.ext
  match a with
  | ⟨0, _⟩ => show (b.val * 4096 + l.val) / 4096 = b.val; omega
  | ⟨1, _⟩ => rfl

/-- The last stage of the reference, for an array of real entries, is the row-energy scaling of it. -/
theorem last_stage (x : (⟨S8x4096, .f32⟩ : BufTy).Contents (Elt Ideal)) (hx : ∀ i, ∃ r : ℝ, x i = (r : EReal)) :
    val_main_v5 (F := Ideal) x = Cert.RowEnergy.scaled x := by
  funext i
  obtain ⟨b, l, rfl⟩ : ∃ (b : Fin 8) (l : Fin 4096), i = ix2 b l := ⟨i 0, i 1, eq_ix2 i⟩
  choose r hr using hx
  rw [val_main_v5_apply, val_main_v4_apply]
  simp only [val_main_v3_apply, val_main_v1_apply, val_main_v2_apply, val_main_cst_apply, val_main_v0_apply,
    Fin.sum_univ_one, left_index, right_index, row_index, Ideal.hostDivf_def, Ideal.ofBits_def]
  show _ = (x (ix2 b l) * ∑ k : Fin 4096, x (ix2 b k) * x (ix2 b k)) * Ideal.ofBits .f32 0x3D800000#32
  simp only [hr]
  exact Cert.RowEnergy.outer_then_apply (r (ix2 b l)) (fun k => r (ix2 b k))

end Cert.ReferenceIdeal.RefValue

end
-- ==== Proof.WholeArray.lean ====
/-
  What the kernel leaves in its result array: the row-energy scaling of its argument.

  The grid has one point, and at that point both windows' blocks are the whole 8 × 4096 arrays. The body loads the
  block `x`, sums `x · x` along each row, re-lays the eight sums as a column, spreads the column across the row,
  multiplies by `x` and then by the constant, and stores the product over the whole output block. Read at `(b, l)`
  that is `(x[b,l] · ∑ k, x[b,k] · x[b,k]) · c`. The one block written back covers every index, so the array after
  the run is that function of the argument array.
-/
import proofs.«134291_j661424964229_2_alg».proof.Proof.Gen.KernelIdeal.Value
import proofs.«134291_j661424964229_2_alg».proof.Proof.RowEnergy
import Idealize.ShloMosaic.Lib.Pipeline.Value
import Idealize.ShloMosaic.Lib.ValueIdx
import Idealize.ShloMosaic.PureOps.Ideal.Laws

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

/-! ## The body at an index -/

/-- The lane sum of `x · x` at row `b` is the energy of row `b`: the reduction over the second axis is the sum over
    that axis's 4096 coordinates, and the index it reads at coordinate `k` is `(b, k)`. -/
theorem row_sum (P0 : FVec Ideal S8x4096 .f32) (b : Fin 8) :
    multiReduction (F := Ideal) .add [1] S8 (mulf (F := Ideal) P0 P0) 0x00000000#32 reduces_S8x4096_S8 (.inl rfl) rfl (ix1 b)
      = Cert.RowEnergy.energy P0 b := by
  refine (Ideal.multiReduction_add_single (mulf (F := Ideal) P0 P0) 0x00000000#32 reduces_S8x4096_S8 (.inl rfl) rfl (ix1 b)).trans ?_
  unfold Cert.RowEnergy.energy
  refine Finset.sum_congr rfl fun k _ => ?_
  have e : reduces_S8x4096_S8.lift (ix1 b) k = ix2 b k :=
    funext fun a => Fin.ext (by match a with | ⟨0, _⟩ => rfl | ⟨1, _⟩ => rfl)
  show P0 (reduces_S8x4096_S8.lift (ix1 b) k) * P0 (reduces_S8x4096_S8.lift (ix1 b) k) = _
  rw [e]
  rfl

/-- The stored value at `(b, l)`, for any loaded block `P0`: the entry times its row's energy times the constant. -/
theorem body_at (P0 : FVec Ideal S8x4096 .f32) (j : S8x4096.Idx) :
    k0_pay1 (F := Ideal) P0 j = Cert.RowEnergy.scaled P0 j := by
  obtain ⟨b, l, rfl⟩ : ∃ (b : Fin 8) (l : Fin 4096), j = ix2 b l := ⟨j 0, j 1, eq_ix2 j⟩
  refine (Cert.KernelIdeal.Value.piece1_0 (F := Ideal) P0 (ix2 b l)).trans ?_
  have e0 : Cert.KernelIdeal.Value.ix1_0 (r0_0.idx (ix2 b l)) = ix2 b l := by
    funext a; apply Fin.ext
    match a with
    | ⟨0, _⟩ => show 0 + 1 * b.val = b.val; omega
    | ⟨1, _⟩ => show 0 + 1 * l.val = l.val; omega
  have e1 : Cert.KernelIdeal.Value.ix1_1 (r0_0.idx (ix2 b l)) = ix1 b := by
    funext a; apply Fin.ext
    match a with
    | ⟨0, _⟩ => show 0 + 1 * b.val = b.val; omega
  show FloatOps.mulf (F := Ideal) (FloatOps.mulf (F := Ideal) (P0 (Cert.KernelIdeal.Value.ix1_0 (r0_0.idx (ix2 b l))))
      (multiReduction (F := Ideal) .add [1] S8 (mulf (F := Ideal) P0 P0) 0x00000000#32 reduces_S8x4096_S8 (.inl rfl) rfl
        (Cert.KernelIdeal.Value.ix1_1 (r0_0.idx (ix2 b l))))) (Scalar.ofBits (F := Ideal) .f32 0x3D800000#32) = _
  rw [e0, e1, row_sum]
  rfl

/-! ## From the one block to the array -/

variable (m : (ℓ : Loc nD τ sig) → Buf (Elt Ideal) ℓ) (ρ : Dev nD → PrngReg)

/-- The rectangle the body loads and stores through starts at the origin. -/
theorem origin : (![0, 0] : Fin 2 → Nat) = fun _ => 0 := funext fun a => by fin_cases a <;> rfl

/-- At every grid point (there is one) both windows' blocks start at the origin of their arrays. -/
theorem block_origin : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the point writes back is its block of the row-energy scaling of the argument array as the region finds it:
    the input block is the whole argument array and the output block the whole result array. -/
theorem point_writes (c : Dev nD) (t : Fin cfg0.N) :
    (dats m 0 c).flushed 1 t
      = ((cfg0.win 1).blk t).view.read (Elt Ideal) (Cert.RowEnergy.scaled (V m c main_arg0)) := by
  obtain ⟨e00, e01, e10, e11⟩ := block_origin t
  rw [Cert.KernelIdeal.Value.flushed1]
  unfold out0_1
  rw [View.canon_unit_zero origin]
  simp only [View.ld_unit_zero (S := S8x4096) origin]
  funext j
  show k0_pay1 (iblk m c 0 t) j = Cert.RowEnergy.scaled (V m c main_arg0) (((cfg0.win 1).blk t).view.emb j)
  have hin : (iblk m c 0 t : S8x4096.Idx → EReal) = V m c main_arg0 := by
    funext y
    show V m c main_arg0 (((cfg0.win 0).blk t).view.emb y) = V m c main_arg0 y
    refine congrArg _ ?_
    funext a; apply Fin.ext
    match a with
    | ⟨0, _⟩ => show win0_0.index t (0 : Fin 2) * 8 + 1 * (y 0).val = (y 0).val; omega
    | ⟨1, _⟩ => show win0_0.index t (1 : Fin 2) * 4096 + 1 * (y 1).val = (y 1).val; omega
  have hout : (((cfg0.win 1).blk t).view.emb j : S8x4096.Idx) = j := by
    funext a; apply Fin.ext
    match a with
    | ⟨0, _⟩ => show win0_1.index t (0 : Fin 2) * 8 + 1 * (j 0).val = (j 0).val; omega
    | ⟨1, _⟩ => show win0_1.index t (1 : Fin 2) * 4096 + 1 * (j 1).val = (j 1).val; omega
  exact (body_at (iblk m c 0 t) j).trans
    ((congrArg (fun X : S8x4096.Idx → EReal => Cert.RowEnergy.scaled X j) hin).trans
      (congrArg (Cert.RowEnergy.scaled (V m c main_arg0)) hout.symm))

/-- An index of the result array is in the point's block iff each coordinate is in the block's range on its axis. -/
theorem mem_block (t : Fin cfg0.N) (i : S8x4096.Idx) :
    i ∈ ((cfg0.win 1).blk t).view.set ↔ ∀ a : Fin 2, win0_1.index t a * S8x4096.size a ≤ (i a).val
      ∧ (i a).val < win0_1.index t a * S8x4096.size a + S8x4096.size a := by
  show i ∈ ((View.whole main_v0).slice (win0_1.rect t)).set ↔ _
  rw [View.set_slice_whole, Rect.mem_set_unit]
  exact Iff.rfl

/-- Every index of the result array is in the block the one point writes back. -/
theorem covered (i : S8x4096.Idx) :
    ∃ t : Fin cfg0.N, (cfg0.win 1).flush t = true ∧ i ∈ ((cfg0.win 1).blk t).view.set := by
  have hi0 : (i 0).val < 8 := (i 0).isLt
  have hi1 : (i 1).val < 4096 := (i 1).isLt
  obtain ⟨-, -, e10, e11⟩ := block_origin t0_0
  refine ⟨t0_0, flush0_1 t0_0, ?_⟩
  rw [mem_block]
  intro a
  match a with
  | ⟨0, _⟩ => show win0_1.index t0_0 (0 : Fin 2) * 8 ≤ (i 0).val ∧ (i 0).val < win0_1.index t0_0 (0 : Fin 2) * 8 + 8; omega
  | ⟨1, _⟩ => show win0_1.index t0_0 (1 : Fin 2) * 4096 ≤ (i 1).val ∧ (i 1).val < win0_1.index t0_0 (1 : Fin 2) * 4096 + 4096; omega

/-- The result array after the run is the row-energy scaling of the argument array as launched. -/
theorem whole_array (c : Dev nD) :
    (dats m 0 c).arrAt 1 cfg0.N = Cert.RowEnergy.scaled (m ((c : Thread nD τ).loc main_arg0)) :=
  (dats m 0 c).arrAt_eq_of_cover 1 (Cert.RowEnergy.scaled (V m c main_arg0)) (fun t _ => point_writes m c t) covered

/-- Every weakly fair execution of the kernel's program terminates with the result array at the row-energy scaling
    of the argument array and the argument array unchanged. -/
theorem run : θ_run defs (onTc (τ := τ) (main (F := Ideal))) ⟨m, fun _ => 0, ρ⟩ fun r => ∀ c : Dev nD,
      r.2.mem ((c : Thread nD τ).loc main_v0) = Cert.RowEnergy.scaled (m ((c : Thread nD τ).loc main_arg0))
      ∧ r.2.mem ((c : Thread nD τ).loc main_arg0) = m ((c : Thread nD τ).loc main_arg0) :=
  (θ_run defs _ _).mono (fun r h c => ⟨(h c).1.trans (whole_array m c), (h c).2⟩)
    (Cert.KernelIdeal.Value.run_blocks m ρ)

end Cert.KernelIdeal.WholeArray

end
-- ==== Proof.lean ====
/-
  Scaling each row of an 8 × 4096 array by its own sum of squares over sixteen, computed two ways.

  The kernel loads the array `x`, sums `x · x` along each row, and stores `x[b,l] · (∑ k, x[b,k]²) · 2⁻⁴`. The reference
  forms, for each row, the outer product of the row with itself, divides it by sixteen and multiplies it by the row:
  `∑ k, ((x[b,l] · x[b,k]) / 16) · x[b,k]`. With exact arithmetic on the extended reals both are read index by index
  (the kernel's array in `WholeArray`, the reference's last stage in `RefValue`), and they are the same function of
  `x` when every entry of `x` is a real number (`RowEnergy.outer_then_apply`: `x[b,l]` and `1/16` leave the sum, and
  dividing by sixteen is multiplying by `2⁻⁴`, which the kernel's constant denotes exactly). The hypothesis that every
  input is finite gives real entries (`FiniteEntries`); it is needed, since taking a factor out of a sum is not valid
  at the infinities.

  Each program runs to completion without a fault and leaves its argument unchanged; no operation of the kernel was
  rewritten in passing to exact arithmetic, so there is nothing to state about that passage.
-/
import proofs.«134291_j661424964229_2_alg».proof.Defs
import proofs.«134291_j661424964229_2_alg».proof.Proof.Gen.Kernel
import proofs.«134291_j661424964229_2_alg».proof.Proof.Gen.Kernel.Skeleton
import proofs.«134291_j661424964229_2_alg».proof.Proof.Gen.Kernel.Launch
import proofs.«134291_j661424964229_2_alg».proof.Proof.Gen.Kernel.Points
import proofs.«134291_j661424964229_2_alg».proof.Proof.Gen.Kernel.Frame
import proofs.«134291_j661424964229_2_alg».proof.Proof.Gen.KernelIdeal
import proofs.«134291_j661424964229_2_alg».proof.Proof.Gen.KernelIdeal.Skeleton
import proofs.«134291_j661424964229_2_alg».proof.Proof.Gen.KernelIdeal.Launch
import proofs.«134291_j661424964229_2_alg».proof.Proof.Gen.KernelIdeal.Points
import proofs.«134291_j661424964229_2_alg».proof.Proof.Gen.KernelIdeal.Frame
import proofs.«134291_j661424964229_2_alg».proof.Proof.Gen.ReferenceIdeal
import proofs.«134291_j661424964229_2_alg».proof.Proof.Gen.Pre_finite_inputs
import proofs.«134291_j661424964229_2_alg».proof.Proof.Gen.KernelIdeal.Value
import proofs.«134291_j661424964229_2_alg».proof.Proof.Gen.ReferenceIdeal.Run
import proofs.«134291_j661424964229_2_alg».proof.Proof.Gen.ReferenceIdeal.Read
import proofs.«134291_j661424964229_2_alg».proof.Proof.RowEnergy
import proofs.«134291_j661424964229_2_alg».proof.Proof.FiniteEntries
import proofs.«134291_j661424964229_2_alg».proof.Proof.RefValue
import proofs.«134291_j661424964229_2_alg».proof.Proof.WholeArray
import Idealize.ShloMosaic.Adequacy
import Idealize.ShloMosaic.Init

noncomputable section

namespace Cert.Proof

open Idealize.ShloMosaic Idealize.SL.Sem

/-- The kernel as printed runs to completion and leaves its argument as it was. -/
theorem frame_kernel : Cert.frame_Kernel := fun m ρ _ => Cert.Kernel.Gen.frame m ρ

/-- So does the kernel read with exact arithmetic. -/
theorem frame_kernel_exact : Cert.frame_KernelIdeal := fun m ρ _ => Cert.KernelIdeal.Gen.frame m ρ

/-- The reference has no kernel: its run is its seven array operations in order, and the argument is never written. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree and are finite, both programs end with the row-energy scaling of the argument: the kernel's
    result array is that function of its argument, the reference's last stage is that function of its own argument when the
    entries are real, the arguments agree, and the hypothesis makes the entries real. -/
theorem algebraic : Cert.algebraic_KernelIdeal_ReferenceIdeal := by
  intro m ρ m' ρ' hpre hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v5_eq _).trans
    (Cert.ReferenceIdeal.RefValue.last_stage _ (fun i => Cert.FiniteEntries.entries_real _ (hpre c) i))

theorem claim : Cert.Claim := ⟨Cert.Kernel.Gen.facts, Cert.KernelIdeal.Gen.facts, Cert.ReferenceIdeal.Gen.facts, Cert.Pre_finite_inputs.Gen.facts,
  frame_kernel, frame_kernel_exact, frame_reference, trivial, algebraic⟩

end Cert.Proof

end
